-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn_part1 {F : FTy → Type} [FloatOps F] (main_arg4 : FVec F S64x1024x64 .f32) (main_v13 : IVec S_ 1) (main_v16 : IVec S64x1024x64 1) : IVec S_ 1 :=
  let main_c_5 : IVec S_ 1 := constantI S_ 1 1#1
  let main_v17 : IVec S_ 1 := (fun x v => Host.reduce IntOp.andi x v reducesTo_S64x1024x64_S_d0_1_2 h_S_) main_v16 main_c_5
  let main_v18 : IVec S_ 1 := andi main_v13 main_v17
  let main_v19 : FVec F S64x1024x64 .f32 := Host.absf main_arg4
  let main_cst_6 : FVec F S_ .f32 := constant S_ .f32 0x7F800000#32
  let main_v20 : FVec F S64x1024x64 .f32 := broadcastInDim S64x1024x64 ![] bcast_S_S64x1024x64 main_cst_6
  let main_v21 : IVec S64x1024x64 1 := cmpf .olt main_v19 main_v20
  let main_c_7 : IVec S_ 1 := constantI S_ 1 1#1
  let main_v22 : IVec S_ 1 := (fun x v => Host.reduce IntOp.andi x v reducesTo_S64x1024x64_S_d0_1_2 h_S_) main_v21 main_c_7
  let main_v23 : IVec S_ 1 := andi main_v18 main_v22
  main_v23

def fn {F : FTy → Type} [FloatOps F] (main_arg0 : FVec F S64x1024x64 .f32) (main_arg1 : FVec F S64x1024x64 .f32) (main_arg2 : FVec F S64x1024x64 .f32) (main_arg3 : FVec F S64x1024x64 .f32) (main_arg4 : FVec F S64x1024x64 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  let main_v14 : FVec F S64x1024x64 .f32 := Host.absf main_arg3
  let main_cst_4 : FVec F S_ .f32 := constant S_ .f32 0x7F800000#32
  let main_v15 : FVec F S64x1024x64 .f32 := broadcastInDim S64x1024x64 ![] bcast_S_S64x1024x64 main_cst_4
  let main_v16 : IVec S64x1024x64 1 := cmpf .olt main_v14 main_v15
  fn_part1 (F := F) main_arg4 main_v13 main_v16
-- ==== Kernel.lean ====
abbrev S64x1024x64 : Shape := ⟨3, ![64, 1024, 64]⟩
abbrev S64x1024x1024 : Shape := ⟨3, ![64, 1024, 1024]⟩
abbrev S1x512x64 : Shape := ⟨3, ![1, 512, 64]⟩
abbrev S1x1024x64 : Shape := ⟨3, ![1, 1024, 64]⟩
abbrev S1x512x1024 : Shape := ⟨3, ![1, 512, 1024]⟩
abbrev S512x64 : Shape := ⟨2, ![512, 64]⟩
abbrev S1024x64 : Shape := ⟨2, ![1024, 64]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 16
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x64, .f32⟩
  | .hbm, ⟨4, _⟩ => ⟨S64x1024x64, .f32⟩
  | .hbm, ⟨5, _⟩ => ⟨S64x1024x64, .f32⟩
  | .hbm, ⟨6, _⟩ => ⟨S64x1024x1024, .f32⟩
  | .hbm, ⟨7, _⟩ => ⟨S64x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S1x512x64, .f32⟩
  | .local _ .vmem, ⟨11, _⟩ => ⟨S1x512x64, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  reduces_S512x1024_S512 : S512x1024.Reduces [1] S512
  shapeCasts_S512_S512x1 : S512.ShapeCasts S512x1
  broadcasts_S512x1_S512x1024 : S512x1.Broadcasts S512x1024
  shapeCasts_S512x64_S1x512x64 : S512x64.ShapeCasts S1x512x64
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S64x1024x64.size a
  hwx0_1 : ∀ i : grid0.Coords, EltTy.bits .f32 = 32 ∨ (Rect.block (s := S64x1024x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x1024x64.size a
  hwx0_3 : ∀ i : grid0.Coords, EltTy.bits .f32 = 32 ∨ (Rect.block (s := S64x1024x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S64x1024x64.size a
  hwx0_4 : ∀ i : grid0.Coords, EltTy.bits .f32 = 32 ∨ (Rect.block (s := S64x1024x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S64x1024x64.size a
  hwx0_5 : ∀ i : grid0.Coords, EltTy.bits .f32 = 32 ∨ (Rect.block (s := S64x1024x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S64x1024x1024.size a
  hwx0_6 : ∀ i : grid0.Coords, EltTy.bits .f32 = 32 ∨ (Rect.block (s := S64x1024x1024) S1x512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S64x1024x1024.size a
  hwx0_7 : ∀ i : grid0.Coords, EltTy.bits .f32 = 32 ∨ (Rect.block (s := S64x1024x1024) S1x512x1024.size (cc0_transform_7 i) (hinb0_7 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x64, .f32⟩
  | .hbm, ⟨4, _⟩ => ⟨S64x1024x64, .f32⟩
  | .hbm, ⟨5, _⟩ => ⟨S64x1024x64, .f32⟩
  | .hbm, ⟨6, _⟩ => ⟨S64x1024x64, .f32⟩
  | .hbm, ⟨7, _⟩ => ⟨S64x1024x1024, .f32⟩
  | .hbm, ⟨8, _⟩ => ⟨S_, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x1024x1, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S_, .f32⟩
  | .hbm, ⟨21, _⟩ => ⟨S64x1024, .f32⟩
  | .hbm, ⟨22, _⟩ => ⟨S64x1024x1, .f32⟩
  | .hbm, ⟨23, _⟩ => ⟨S64x1024x1024, .f32⟩
  | .hbm, ⟨24, _⟩ => ⟨S64x1024x1024, .f32⟩
  | .hbm, ⟨25, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Spec.lean ====
/-
  The mathematics both programs compute, stated once over the extended reals and over no program.

  From five arrays of shape [64, 1024, 64] — queries `q`, a second query term `qs`, keys `k`, a second key term `ks`,
  values `v` — scaled dot-product attention forms, for each batch-head `b`:
    * `score b n m  = (∑ d, (q b n d + qs b n d) · (k b m d + ks b m d)) / 8`,
    * the row maximum `rowMax b n = max over m of score b n m` (a fold of `max` from `-∞`),
    * `shifted b n m = exp (score b n m - rowMax b n)` and its row sum `rowSum b n = ∑ m, shifted b n m`,
    * `softmax b n m = shifted b n m / rowSum b n`,
    * `weighted b n d = ∑ m, softmax b n m · v b m d`.
  Sums over a finite index set are order-free on the extended reals (addition commutes and associates), and so is the
  fold of `max`; this is why a block-by-block evaluation and a whole-array evaluation agree.

  The two programs scale differently: one multiplies by the float `0.125`, the other divides by the float `8.0`.
  Both literals are exact dyadics (1/8 and 8), and on every extended real `x · (1/8) = x / 8` (`mul_eighth`).
-/
import Idealize.ShloMosaic.PureOps.Ideal.Laws
import Idealize.ShloMosaic.Lib.ValueIdx

noncomputable section

namespace Cert.Spec

open Idealize.ShloMosaic Idealize.ShloMosaic.ValueIdx

/-- An array of shape [64, 1024, 64] of extended reals. -/
abbrev Arr : Type := (⟨3, ![64, 1024, 64]⟩ : Shape).Idx → EReal
/-- An array of shape [64, 1024, 1024] of extended reals. -/
abbrev Sq : Type := (⟨3, ![64, 1024, 1024]⟩ : Shape).Idx → EReal

/-- The scaled dot product of the fused query row `n` and the fused key row `m` of batch-head `b`. -/
def score (q qs k ks : Arr) : Sq := fun i =>
  Ideal.div (∑ d : Fin 64, (q (ix3 (i 0) (i 1) d) + qs (ix3 (i 0) (i 1) d)) * (k (ix3 (i 0) (i 2) d) + ks (ix3 (i 0) (i 2) d)))
    (Ideal.ofBits .f32 0x41000000#32)

/-- The maximum of row `(b, n)`: the fold of `max` over the row's 1024 entries, from `-∞`. -/
def rowMax (s : Sq) (b : Fin 64) (n : Fin 1024) : EReal :=
  (Finset.univ : Finset (Fin 1024)).fold max (Ideal.ofBits .f32 0xFF800000#32) (fun c => s (ix3 b n c))

/-- Each entry less its row's maximum, exponentiated. -/
def shifted (s : Sq) : Sq := fun i => Ideal.exp (s i - rowMax s (i 0) (i 1))

/-- The sum of row `(b, n)` of the shifted exponentials. -/
def rowSum (s : Sq) (b : Fin 64) (n : Fin 1024) : EReal := ∑ c : Fin 1024, shifted s (ix3 b n c)

/-- The row-wise softmax: each shifted exponential over its row's sum. -/
def softmax (s : Sq) : Sq := fun i => Ideal.div (shifted s i) (rowSum s (i 0) (i 1))

/-- The attention-weighted sum of the value rows. -/
def weighted (a : Sq) (v : Arr) : Arr := fun i => ∑ c : Fin 1024, a (ix3 (i 0) (i 1) c) * v (ix3 (i 0) c (i 2))

/-- Row `r` of the `o`-th block of 512 rows of a 1024-row axis. -/
def row (o : Fin 2) (r : Fin 512) : Fin 1024 := ⟨o.val * 512 + r.val, by have := o.isLt; have := r.isLt; omega⟩

theorem row_val (o : Fin 2) (r : Fin 512) : (row o r).val = o.val * 512 + r.val := rfl

/-! ## The float literals -/

/-- The float `8.0` denotes the real 8. -/
theorem ofBits_eight : Ideal.ofBits .f32 0x41000000#32 = ((8 : ℝ) : EReal) := by
  simp [Ideal.ofBits, Ideal.ieee, -EReal.coe_mul]; norm_num

/-- The float `0.125` denotes the real 1/8. -/
theorem ofBits_eighth : Ideal.ofBits .f32 0x3E000000#32 = ((1 / 8 : ℝ) : EReal) := by
  simp [Ideal.ofBits, Ideal.ieee, -EReal.coe_mul]; norm_num

/-- The pattern `0xFF800000` denotes `-∞`. -/
theorem ofBits_neg_inf : Ideal.ofBits .f32 0xFF800000#32 = ⊥ := by
  simp [Ideal.ofBits, Ideal.ieee]

/-- Multiplying by the float `0.125` is dividing by the float `8.0`, on every extended real. -/
theorem mul_eighth (x : EReal) :
    x * Ideal.ofBits .f32 0x3E000000#32 = Ideal.div x (Ideal.ofBits .f32 0x41000000#32) := by
  rw [ofBits_eight, ofBits_eighth, Ideal.div_coe (by norm_num : (8 : ℝ) ≠ 0)]

/-- `max` against `-∞` changes nothing. -/
theorem max_neg_inf (x : EReal) : max (Ideal.ofBits .f32 0xFF800000#32) x = x := by
  rw [ofBits_neg_inf]; exact max_bot_left x

end Cert.Spec

end
-- ==== Proof.RefSpec.lean ====
/-
  The reference program's three results are the specification's three functions of its arguments.
-/
import proofs.«123765_j22625887715975_2_alg».proof.Proof.Gen.ReferenceIdeal.Read
import proofs.«123765_j22625887715975_2_alg».proof.Proof.Spec

noncomputable section

namespace Cert.RefSpec

open Idealize.ShloMosaic Idealize.ShloMosaic.ValueIdx Cert.ReferenceIdeal Cert.ReferenceIdeal.Read

/-- The reference's scaled scores. (Arguments: 0 = q, 1 = k, 2 = v, 3 = the second query term, 4 = the second key term.) -/
theorem score_eq (x0 x1 x3 x4 : (⟨S64x1024x64, .f32⟩ : BufTy).Contents (Elt Ideal)) :
    val_main_v4 (F := Ideal) x0 x1 x3 x4 = Cert.Spec.score x0 x3 x1 x4 := by
  funext i
  rw [val_main_v4_apply, val_main_v2_apply, val_main_v3_apply, val_main_cst_apply]
  unfold Cert.Spec.score
  rw [Ideal.hostDivf_def, Ideal.ofBits_def]
  refine congrArg (fun s => Ideal.div s _) (Finset.sum_congr rfl fun k _ => ?_)
  rw [val_main_v0_apply, val_main_v1_apply, Ideal.addf_def, Ideal.addf_def]
  have el : lidx_main_v2 i k = ix3 (i 0) (i 1) k :=
    funext fun a => Fin.ext (by match a with | ⟨0, _⟩ => rfl | ⟨1, _⟩ => rfl | ⟨2, _⟩ => rfl)
  have er : ridx_main_v2 i k = ix3 (i 0) (i 2) k :=
    funext fun a => Fin.ext (by match a with | ⟨0, _⟩ => rfl | ⟨1, _⟩ => rfl | ⟨2, _⟩ => rfl)
  rw [el, er]
  rfl

/-- The reference's row maximum: the fold of `max` over a row of the scores, from `-∞`. -/
private theorem rowMax_eq (x0 x1 x3 x4 : (⟨S64x1024x64, .f32⟩ : BufTy).Contents (Elt Ideal)) (j : S64x1024.Idx) :
    val_main_v7 (F := Ideal) x0 x1 x3 x4 j = Cert.Spec.rowMax (Cert.Spec.score x0 x3 x1 x4) (j 0) (j 1) := by
  rw [val_main_v7_apply, val_main_v6_apply, val_main_cst_1_apply, Ideal.maximumf_def, Ideal.ofBits_def,
    Cert.Spec.max_neg_inf]
  unfold val_main_v5
  rw [score_eq]
  have h : S64x1024x1024.Reduces [2] S64x1024 := by decide
  rw [Host.reduce_eq_fold_single (FloatOps.maximumf (F := Ideal)) _ _ _ h]
  unfold Cert.Spec.rowMax
  have e : ∀ c : Fin 1024, h.lift j c = ix3 (j 0) (j 1) c := fun c =>
    funext fun a => Fin.ext (by match a with | ⟨0, _⟩ => rfl | ⟨1, _⟩ => rfl | ⟨2, _⟩ => rfl)
  exact congrArg (fun f => Finset.fold max (Ideal.ofBits FTy.f32 0xFF800000#32) f Finset.univ)
    (funext fun c => congrArg (Cert.Spec.score x0 x3 x1 x4) (e c))

/-- The reference's shifted exponentials. -/
private theorem shifted_eq (x0 x1 x3 x4 : (⟨S64x1024x64, .f32⟩ : BufTy).Contents (Elt Ideal)) :
    val_main_v11 (F := Ideal) x0 x1 x3 x4 = Cert.Spec.shifted (Cert.Spec.score x0 x3 x1 x4) := by
  funext i
  rw [val_main_v11_apply, val_main_v10_apply, val_main_v9_apply, val_main_v8_apply, rowMax_eq, score_eq,
    Ideal.hostUnary_exp_def, Ideal.subf_def]
  rfl

/-- The reference's row sum of the shifted exponentials: the float sum starts from zero. -/
private theorem rowSum_eq (x0 x1 x3 x4 : (⟨S64x1024x64, .f32⟩ : BufTy).Contents (Elt Ideal)) (j : S64x1024.Idx) :
    val_main_v12 (F := Ideal) x0 x1 x3 x4 j = Cert.Spec.rowSum (Cert.Spec.score x0 x3 x1 x4) (j 0) (j 1) := by
  rw [val_main_v12_apply, val_main_cst_2_apply, Ideal.ofBits_def, Ideal.ofBits_zero_f32, zero_add, shifted_eq]
  unfold Cert.Spec.rowSum
  refine Finset.sum_congr rfl fun k _ => congrArg (Cert.Spec.shifted (Cert.Spec.score x0 x3 x1 x4)) ?_
  exact funext fun a => Fin.ext (by match a with | ⟨0, _⟩ => rfl | ⟨1, _⟩ => rfl | ⟨2, _⟩ => rfl)

/-- The reference's softmax. -/
theorem softmax_eq (x0 x1 x3 x4 : (⟨S64x1024x64, .f32⟩ : BufTy).Contents (Elt Ideal)) :
    val_main_v15 (F := Ideal) x0 x1 x3 x4 = Cert.Spec.softmax (Cert.Spec.score x0 x3 x1 x4) := by
  funext i
  rw [val_main_v15_apply, val_main_v14_apply, val_main_v13_apply, rowSum_eq, shifted_eq, Ideal.hostDivf_def]
  rfl

/-- The reference's weighted sum of the values. -/
theorem weighted_eq (x0 x1 x2 x3 x4 : (⟨S64x1024x64, .f32⟩ : BufTy).Contents (Elt Ideal)) :
    val_main_v16 (F := Ideal) x0 x1 x2 x3 x4 = Cert.Spec.weighted (Cert.Spec.softmax (Cert.Spec.score x0 x3 x1 x4)) x2 := by
  funext i
  rw [val_main_v16_apply, softmax_eq]
  unfold Cert.Spec.weighted
  refine Finset.sum_congr rfl fun k _ => ?_
  have el : lidx_main_v16 i k = ix3 (i 0) (i 1) k :=
    funext fun a => Fin.ext (by match a with | ⟨0, _⟩ => rfl | ⟨1, _⟩ => rfl | ⟨2, _⟩ => rfl)
  have er : ridx_main_v16 i k = ix3 (i 0) k (i 2) :=
    funext fun a => Fin.ext (by match a with | ⟨0, _⟩ => rfl | ⟨1, _⟩ => rfl | ⟨2, _⟩ => rfl)
  rw [el, er]
  rfl

end Cert.RefSpec

end
-- ==== Proof.KPay.lean ====
/-
  What the kernel body stores, read at an index: when the loaded blocks are rows `row o ·` of batch-head `b` of the
  argument arrays, each stored value is the specification's function at the corresponding array index.
-/
import proofs.«123765_j22625887715975_2_alg».proof.Proof.Gen.KernelIdeal.Skeleton
import proofs.«123765_j22625887715975_2_alg».proof.Proof.Spec
import Idealize.ShloMosaic.Lib.Pipeline.Value
import Idealize.ShloMosaic.Lib.ValueLayout

noncomputable section

namespace Cert.KPay

open Idealize.ShloMosaic Idealize.ShloMosaic.ValueIdx Cert.KernelIdeal Cert.KernelIdeal.Gen Cert.Spec

/-! ## Shape casts between a block with a leading unit axis and the matrix under it -/

/-- Dropping a leading unit axis keeps the row and the column. -/
private theorem cast_drop {α : Type} {n m : Nat} (x : (⟨3, ![1, n, m]⟩ : Shape).Idx → α)
    (h : (⟨3, ![1, n, m]⟩ : Shape).ShapeCasts ⟨2, ![n, m]⟩) (r : Fin n) (d : Fin m) :
    shapeCast ⟨2, ![n, m]⟩ x h (ix2 r d) = x (ix3 0 r d) :=
  shapeCast_apply x h (ix2 r d) (ix3 0 r d) (by
    rw [Shape.rowMajor_val_two, Shape.rowMajor_val_three]
    show ((0 : Fin 1).val * n + r.val) * m + d.val = r.val * m + d.val
    simp)

/-- Adding a leading unit axis keeps the row and the column. -/
private theorem cast_add {α : Type} {n m : Nat} (x : (⟨2, ![n, m]⟩ : Shape).Idx → α)
    (h : (⟨2, ![n, m]⟩ : Shape).ShapeCasts ⟨3, ![1, n, m]⟩) (y : (⟨3, ![1, n, m]⟩ : Shape).Idx) :
    shapeCast ⟨3, ![1, n, m]⟩ x h y = x (ix2 (y 1) (y 2)) :=
  shapeCast_apply x h y (ix2 (y 1) (y 2)) (by
    rw [Shape.rowMajor_val_two, Shape.rowMajor_val_three]
    have h0 : (y 0).val = 0 := by have : (y 0).val < 1 := (y 0).isLt; omega
    show (y 1).val * m + (y 2).val = ((y 0).val * n + (y 1).val) * m + (y 2).val
    rw [h0, Nat.zero_mul, Nat.zero_add])

/-! ## The two contractions' operand indices -/

private theorem lhsA_0 (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide),
    dif_pos (show (0 : Fin S512x64.rank) ∈ dot_S512x64_S1024x64_S512x1024_1_1_0_0_n_n.lhsNonContracting by decide)]
  rfl
private theorem lhsA_1 (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q
private theorem rhsA_0 (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide),
    dif_pos (show (0 : Fin S1024x64.rank) ∈ dot_S512x64_S1024x64_S512x1024_1_1_0_0_n_n.rhsNonContracting by decide)]
  rfl
private theorem rhsA_1 (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q

/-- The score block read at an index. -/
theorem pay2_apply (P0 P1 : Vec Ideal S1x512x64 .f32) (P2 P3 : Vec Ideal S1x1024x64 .f32) (r : Fin 512) (c : Fin 1024) :
    k0_pay2 (F := Ideal) P0 P1 P2 P3 (ix2 r c) =
      (∑ d : Fin 64, (P0 (ix3 0 r d) + P1 (ix3 0 r d)) * (P2 (ix3 0 c d) + P3 (ix3 0 c d))) * Ideal.ofBits .f32 0x3E000000#32 := by
  unfold k0_pay2
  refine (mulf_apply _ _ _).trans ?_
  refine congrArg₂ (· * ·) ?_ rfl
  refine (Ideal.matmul_constant_zero_apply dot_S512x64_S1024x64_S512x1024_1_1_0_0_n_n none _ _ _).trans ?_
  rw [← Equiv.sum_comp (contrEquiv1 dot_S512x64_S1024x64_S512x1024_1_1_0_0_n_n 64 rfl rfl).symm]
  refine Finset.sum_congr rfl fun d _ => ?_
  have hd := contrEquiv1_symm_val dot_S512x64_S1024x64_S512x1024_1_1_0_0_n_n 64 rfl rfl d
  have el : dot_S512x64_S1024x64_S512x1024_1_1_0_0_n_n.lhsIdx (ix2 r c)
      ((contrEquiv1 dot_S512x64_S1024x64_S512x1024_1_1_0_0_n_n 64 rfl rfl).symm d) = ix2 r d :=
    funext fun a => Fin.ext (by
      match a with
      | ⟨0, _⟩ => exact lhsA_0 _ _
      | ⟨1, _⟩ => exact (lhsA_1 _ _).trans hd)
  have er : dot_S512x64_S1024x64_S512x1024_1_1_0_0_n_n.rhsIdx (ix2 r c)
      ((contrEquiv1 dot_S512x64_S1024x64_S512x1024_1_1_0_0_n_n 64 rfl rfl).symm d) = ix2 c d :=
    funext fun a => Fin.ext (by
      match a with
      | ⟨0, _⟩ => exact rhsA_0 _ _
      | ⟨1, _⟩ => exact (rhsA_1 _ _).trans hd)
  rw [el, er]
  show (shapeCast S512x64 P0 shapeCasts_S1x512x64_S512x64 (ix2 r d) + shapeCast S512x64 P1 shapeCasts_S1x512x64_S512x64 (ix2 r d))
      * (shapeCast S1024x64 P2 shapeCasts_S1x1024x64_S1024x64 (ix2 c d) + shapeCast S1024x64 P3 shapeCasts_S1x1024x64_S1024x64 (ix2 c d)) = _
  rw [cast_drop, cast_drop, cast_drop, cast_drop]

/-- Under the block hypotheses the score block is the specification's score. -/
theorem pay2_score (q qs k ks : Arr) (b : Fin 64) (o : Fin 2)
    (P0 P1 : Vec Ideal S1x512x64 .f32) (P2 P3 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (r : Fin 512) (c : Fin 1024) :
    k0_pay2 (F := Ideal) P0 P1 P2 P3 (ix2 r c) = score q qs k ks (ix3 b (row o r) c) := by
  rw [pay2_apply, mul_eighth]
  show _ = Ideal.div (∑ d : Fin 64, (q (ix3 b (row o r) d) + qs (ix3 b (row o r) d)) * (k (ix3 b c d) + ks (ix3 b c d)))
    (Ideal.ofBits .f32 0x41000000#32)
  refine congrArg (fun s => Ideal.div s (Ideal.ofBits .f32 0x41000000#32)) ?_
  refine Finset.sum_congr rfl fun d _ => ?_
  rw [h0, h1, h2, h3]

/-! ## Rows: the inserted coordinate, and a per-row value broadcast back over the columns -/

/-- The index of row `r` with column `c` inserted. -/
private theorem lift_row (r : Fin 512) (c : Fin 1024) :
    reduces_S512x1024_S512.lift (ix1 r) c = ix2 r c :=
  funext fun a => Fin.ext (by match a with | ⟨0, _⟩ => rfl | ⟨1, _⟩ => rfl)

/-- A per-row value, cast to a column and broadcast over the columns, reads the row's value. -/
private theorem bcast_row (w : FVec Ideal S512 .f32) (r : Fin 512) (c : Fin 1024) :
    broadcastTo S512x1024 (shapeCast S512x1 w shapeCasts_S512_S512x1) broadcasts_S512x1_S512x1024 (ix2 r c) = w (ix1 r) := by
  refine (broadcastTo_apply _ _ (ix2 r c) (ix2 r (0 : Fin 1)) (fun a => match a with
      | ⟨0, _⟩ => by show r.val = (if (512 : Nat) = 1 then 0 else r.val); rw [if_neg (by decide)]
      | ⟨1, _⟩ => by show 0 = (if (1 : Nat) = 1 then 0 else c.val); rw [if_pos rfl])).trans ?_
  exact shapeCast_apply _ _ (ix2 r (0 : Fin 1)) (ix1 r) (by
    rw [Shape.rowMajor_val_one, Shape.rowMajor_val_two]; show r.val = r.val * 1 + 0; omega)

/-- The row maxima of the score block. -/
private abbrev kmax (P0 P1 : Vec Ideal S1x512x64 .f32) (P2 P3 : Vec Ideal S1x1024x64 .f32) : FVec Ideal S512 .f32 :=
  multiReduction (F := Ideal) .maximumf [1] S512 (k0_pay2 P0 P1 P2 P3) 0xFF800000#32 reduces_S512x1024_S512 (.inl rfl) rfl

/-- The row maxima of the score block are the specification's row maxima. -/
theorem pay2_rowMax (q qs k ks : Arr) (b : Fin 64) (o : Fin 2)
    (P0 P1 : Vec Ideal S1x512x64 .f32) (P2 P3 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (r : Fin 512) :
    kmax P0 P1 P2 P3 (ix1 r) = rowMax (score q qs k ks) b (row o r) := by
  refine (Ideal.multiReduction_maximumf_single _ _ _ _ _ _).trans ?_
  show (Finset.univ : Finset (Fin 1024)).fold max (Ideal.ofBits .f32 0xFF800000#32) _ = (Finset.univ : Finset (Fin 1024)).fold max (Ideal.ofBits .f32 0xFF800000#32) (fun c => score q qs k ks (ix3 b (row o r) c))
  refine congrArg (fun f => (Finset.univ : Finset (Fin 1024)).fold max (Ideal.ofBits .f32 0xFF800000#32) f) ?_
  refine funext fun (c : Fin 1024) => ?_
  exact (congrArg (k0_pay2 (F := Ideal) P0 P1 P2 P3) (lift_row r c)).trans
    (pay2_score q qs k ks b o P0 P1 P2 P3 h0 h1 h2 h3 r c)

/-! ## The softmax block -/

/-- Each score less its row's maximum, exponentiated. -/
private abbrev kexp (P0 P1 : Vec Ideal S1x512x64 .f32) (P2 P3 : Vec Ideal S1x1024x64 .f32) : FVec Ideal S512x1024 .f32 :=
  exp (subf (k0_pay2 P0 P1 P2 P3)
    (broadcastTo S512x1024 (shapeCast S512x1 (kmax P0 P1 P2 P3) shapeCasts_S512_S512x1) broadcasts_S512x1_S512x1024))

/-- The row sums of the exponentials. -/
private abbrev ksum (P0 P1 : Vec Ideal S1x512x64 .f32) (P2 P3 : Vec Ideal S1x1024x64 .f32) : FVec Ideal S512 .f32 :=
  multiReduction (F := Ideal) .add [1] S512 (kexp P0 P1 P2 P3) 0x00000000#32 reduces_S512x1024_S512 (.inl rfl) rfl

/-- The softmax block is the quotient of the exponentials by their row sums. -/
private theorem pay4_eq (P0 P1 : Vec Ideal S1x512x64 .f32) (P2 P3 : Vec Ideal S1x1024x64 .f32) :
    k0_pay4 (F := Ideal) P0 P1 P2 P3 = divf (kexp P0 P1 P2 P3)
      (broadcastTo S512x1024 (shapeCast S512x1 (ksum P0 P1 P2 P3) shapeCasts_S512_S512x1) broadcasts_S512x1_S512x1024) := rfl

/-- The exponentials are the specification's shifted exponentials. -/
theorem kexp_shifted (q qs k ks : Arr) (b : Fin 64) (o : Fin 2)
    (P0 P1 : Vec Ideal S1x512x64 .f32) (P2 P3 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (r : Fin 512) (c : Fin 1024) :
    kexp P0 P1 P2 P3 (ix2 r c) = shifted (score q qs k ks) (ix3 b (row o r) c) := by
  show Ideal.exp (k0_pay2 (F := Ideal) P0 P1 P2 P3 (ix2 r c)
      - broadcastTo S512x1024 (shapeCast S512x1 (kmax P0 P1 P2 P3) shapeCasts_S512_S512x1) broadcasts_S512x1_S512x1024 (ix2 r c))
    = Ideal.exp (score q qs k ks (ix3 b (row o r) c) - rowMax (score q qs k ks) b (row o r))
  rw [bcast_row, pay2_rowMax q qs k ks b o P0 P1 P2 P3 h0 h1 h2 h3, pay2_score q qs k ks b o P0 P1 P2 P3 h0 h1 h2 h3]

/-- The row sums are the specification's row sums. -/
theorem ksum_rowSum (q qs k ks : Arr) (b : Fin 64) (o : Fin 2)
    (P0 P1 : Vec Ideal S1x512x64 .f32) (P2 P3 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (r : Fin 512) :
    ksum P0 P1 P2 P3 (ix1 r) = rowSum (score q qs k ks) b (row o r) := by
  refine (Ideal.multiReduction_add_single _ _ _ _ _ _).trans ?_
  show ∑ c : Fin 1024, kexp P0 P1 P2 P3 (reduces_S512x1024_S512.lift (ix1 r) c)
    = ∑ c : Fin 1024, shifted (score q qs k ks) (ix3 b (row o r) c)
  refine Finset.sum_congr rfl fun c _ => ?_
  exact (congrArg (kexp P0 P1 P2 P3) (lift_row r c)).trans (kexp_shifted q qs k ks b o P0 P1 P2 P3 h0 h1 h2 h3 r c)

/-- Under the block hypotheses the softmax block is the specification's softmax of the score. -/
theorem pay4_softmax (q qs k ks : Arr) (b : Fin 64) (o : Fin 2)
    (P0 P1 : Vec Ideal S1x512x64 .f32) (P2 P3 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (r : Fin 512) (c : Fin 1024) :
    k0_pay4 (F := Ideal) P0 P1 P2 P3 (ix2 r c) = softmax (score q qs k ks) (ix3 b (row o r) c) := by
  rw [pay4_eq]
  refine (divf_apply _ _ _).trans ?_
  rw [bcast_row, kexp_shifted q qs k ks b o P0 P1 P2 P3 h0 h1 h2 h3, ksum_rowSum q qs k ks b o P0 P1 P2 P3 h0 h1 h2 h3]
  rfl

/-! ## The weighted sum of the value rows -/

private theorem lhsB_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl
private theorem lhsB_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
private theorem rhsB_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
private theorem rhsB_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The output block read at an index: the row of the left operand against the column of the value block. -/
theorem pay1_apply (V : FVec Ideal S512x1024 .f32) (P4 : Vec Ideal S1x1024x64 .f32) (y : S1x512x64.Idx) :
    k0_pay1 (F := Ideal) V P4 y = ∑ c : Fin 1024, V (ix2 (y 1) c) * P4 (ix3 0 c (y 2)) := by
  unfold k0_pay1
  refine (cast_add _ _ y).trans ?_
  refine (Ideal.matmul_constant_zero_apply dot_S512x1024_S1024x64_S512x64_1_0_0_1_n_n none _ _ _).trans ?_
  rw [← Equiv.sum_comp (contrEquiv1 dot_S512x1024_S1024x64_S512x64_1_0_0_1_n_n 1024 rfl rfl).symm]
  refine Finset.sum_congr rfl fun c _ => ?_
  have hc := contrEquiv1_symm_val dot_S512x1024_S1024x64_S512x64_1_0_0_1_n_n 1024 rfl rfl c
  have el : dot_S512x1024_S1024x64_S512x64_1_0_0_1_n_n.lhsIdx (ix2 (y 1) (y 2))
      ((contrEquiv1 dot_S512x1024_S1024x64_S512x64_1_0_0_1_n_n 1024 rfl rfl).symm c) = ix2 (y 1) c :=
    funext fun a => Fin.ext (by
      match a with
      | ⟨0, _⟩ => exact lhsB_0 _ _
      | ⟨1, _⟩ => exact (lhsB_1 _ _).trans hc)
  have er : dot_S512x1024_S1024x64_S512x64_1_0_0_1_n_n.rhsIdx (ix2 (y 1) (y 2))
      ((contrEquiv1 dot_S512x1024_S1024x64_S512x64_1_0_0_1_n_n 1024 rfl rfl).symm c) = ix2 c (y 2) :=
    funext fun a => Fin.ext (by
      match a with
      | ⟨0, _⟩ => exact (rhsB_0 _ _).trans hc
      | ⟨1, _⟩ => exact rhsB_1 _ _)
  rw [el, er]
  exact congrArg (V (ix2 (y 1) c) * ·) (cast_drop P4 shapeCasts_S1x1024x64_S1024x64 c (y 2))

/-! ## The three stored blocks -/

/-- The stored score block. -/
theorem score_store (q qs k ks : Arr) (b : Fin 64) (o : Fin 2)
    (P0 P1 : Vec Ideal S1x512x64 .f32) (P2 P3 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (y : S1x512x1024.Idx) :
    k0_pay3 (F := Ideal) P0 P1 P2 P3 y = score q qs k ks (ix3 b (row o (y 1)) (y 2)) := by
  unfold k0_pay3
  refine (cast_add _ _ y).trans ?_
  exact pay2_score q qs k ks b o P0 P1 P2 P3 h0 h1 h2 h3 (y 1) (y 2)

/-- The stored softmax block. -/
theorem softmax_store (q qs k ks : Arr) (b : Fin 64) (o : Fin 2)
    (P0 P1 : Vec Ideal S1x512x64 .f32) (P2 P3 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (y : S1x512x1024.Idx) :
    k0_pay5 (F := Ideal) P0 P1 P2 P3 y = softmax (score q qs k ks) (ix3 b (row o (y 1)) (y 2)) := by
  unfold k0_pay5
  refine (cast_add _ _ y).trans ?_
  exact pay4_softmax q qs k ks b o P0 P1 P2 P3 h0 h1 h2 h3 (y 1) (y 2)

/-- The stored output block. -/
theorem weighted_store (q qs k ks v : Arr) (b : Fin 64) (o : Fin 2)
    (P0 P1 : Vec Ideal S1x512x64 .f32) (P2 P3 P4 : Vec Ideal S1x1024x64 .f32)
    (h0 : ∀ (r : Fin 512) (d : Fin 64), P0 (ix3 0 r d) = q (ix3 b (row o r) d))
    (h1 : ∀ (r : Fin 512) (d : Fin 64), P1 (ix3 0 r d) = qs (ix3 b (row o r) d))
    (h2 : ∀ (c : Fin 1024) (d : Fin 64), P2 (ix3 0 c d) = k (ix3 b c d))
    (h3 : ∀ (c : Fin 1024) (d : Fin 64), P3 (ix3 0 c d) = ks (ix3 b c d))
    (h4 : ∀ (c : Fin 1024) (d : Fin 64), P4 (ix3 0 c d) = v (ix3 b c d))
    (y : S1x512x64.Idx) :
    k0_pay1 (F := Ideal) (k0_pay4 P0 P1 P2 P3) P4 y = weighted (softmax (score q qs k ks)) v (ix3 b (row o (y 1)) (y 2)) := by
  rw [pay1_apply]
  show _ = ∑ c : Fin 1024, softmax (score q qs k ks) (ix3 b (row o (y 1)) c) * v (ix3 b c (y 2))
  refine Finset.sum_congr rfl fun c _ => ?_
  exact congrArg₂ (· * ·) (pay4_softmax q qs k ks b o P0 P1 P2 P3 h0 h1 h2 h3 (y 1) c) (h4 c (y 2))

end Cert.KPay

end
-- ==== Proof.Blocks.lean ====
/-
  From blocks to arrays.

  The grid has 64 × 2 points; point (b, o) stages rows `o·512 … o·512 + 511` of batch-head `b` of the two query arrays,
  all 1024 rows of batch-head `b` of the two key arrays and of the value array, and writes back rows `o·512 …` of
  batch-head `b` of the three results. Every stored value is the specification's function at the array index the block
  entry lands on, so each result array, whose blocks tile it, ends as that function of the argument arrays.
-/
import proofs.«123765_j22625887715975_2_alg».proof.Proof.Gen.KernelIdeal.Value
import proofs.«123765_j22625887715975_2_alg».proof.Proof.KPay

noncomputable section

namespace Cert.Blocks

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 128 grid points: the three result windows and the two query windows sit at
    block (b, o, 0); the two key windows and the value window at block (b, 0, 0); b < 64 and o < 2. -/
theorem idx_facts : ∀ t : Fin cfg0.N,
    win0_7.index t (0 : Fin 3) ≤ 63 ∧ win0_7.index t (1 : Fin 3) ≤ 1 ∧ win0_7.index t (2 : Fin 3) = 0
    ∧ win0_6.index t (0 : Fin 3) = win0_7.index t (0 : Fin 3) ∧ win0_6.index t (1 : Fin 3) = win0_7.index t (1 : Fin 3) ∧ win0_6.index t (2 : Fin 3) = 0
    ∧ win0_5.index t (0 : Fin 3) = win0_7.index t (0 : Fin 3) ∧ win0_5.index t (1 : Fin 3) = win0_7.index t (1 : Fin 3) ∧ win0_5.index t (2 : Fin 3) = 0
    ∧ win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = win0_7.index t (1 : Fin 3) ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = 0 ∧ win0_3.index t (2 : Fin 3) = 0
    ∧ win0_4.index t (0 : Fin 3) = win0_7.index t (0 : Fin 3) ∧ win0_4.index t (1 : Fin 3) = 0 ∧ win0_4.index t (2 : Fin 3) = 0 :=
  (by decide +kernel : ∀ t : Fin grid0.N, _)

/-- Every block (b, o) of the results is some point's. -/
theorem idx_onto : ∀ (b : Fin 64) (o : Fin 2), ∃ t : Fin cfg0.N, win0_7.index t (0 : Fin 3) = b.val ∧ win0_7.index t (1 : Fin 3) = o.val :=
  (by decide +kernel : ∀ (b : Fin 64) (o : Fin 2), ∃ t : Fin grid0.N, win0_7.index t (0 : Fin 3) = b.val ∧ win0_7.index t (1 : Fin 3) = o.val)

/-- The batch-head of point `t`. -/
def bh (t : Fin cfg0.N) : Fin 64 := ⟨win0_7.index t (0 : Fin 3), by have := (idx_facts t).1; omega⟩
/-- The row block of point `t`. -/
def rb (t : Fin cfg0.N) : Fin 2 := ⟨win0_7.index t (1 : Fin 3), by have := (idx_facts t).2.1; omega⟩

/-! ## The input blocks, read at an index -/

theorem blk_q (c : Dev nD) (t : Fin cfg0.N) (r : Fin 512) (d : Fin 64) :
    iblk m c 0 t (ix3 0 r d) = V m c main_arg0 (ix3 (bh t) (row (rb t) r) d) := by
  obtain ⟨-, -, -, -, -, -, -, -, -, e0, e1, e2, -⟩ := idx_facts t
  show V m c main_arg0 (((cfg0.win 0).blk t).view.emb (ix3 0 r d)) = _
  refine congrArg (V m c main_arg0) (funext fun a => Fin.ext ?_)
  match a with
  | ⟨0, _⟩ => show win0_0.index t (0 : Fin 3) * 1 + 1 * 0 = win0_7.index t (0 : Fin 3); omega
  | ⟨1, _⟩ => show win0_0.index t (1 : Fin 3) * 512 + 1 * r.val = win0_7.index t (1 : Fin 3) * 512 + r.val; omega
  | ⟨2, _⟩ => show win0_0.index t (2 : Fin 3) * 64 + 1 * d.val = d.val; omega

theorem blk_qs (c : Dev nD) (t : Fin cfg0.N) (r : Fin 512) (d : Fin 64) :
    iblk m c 1 t (ix3 0 r d) = V m c main_arg3 (ix3 (bh t) (row (rb t) r) d) := by
  obtain ⟨-, -, -, -, -, -, -, -, -, -, -, -, e0, e1, e2, -⟩ := idx_facts t
  show V m c main_arg3 (((cfg0.win 1).blk t).view.emb (ix3 0 r d)) = _
  refine congrArg (V m c main_arg3) (funext fun a => Fin.ext ?_)
  match a with
  | ⟨0, _⟩ => show win0_1.index t (0 : Fin 3) * 1 + 1 * 0 = win0_7.index t (0 : Fin 3); omega
  | ⟨1, _⟩ => show win0_1.index t (1 : Fin 3) * 512 + 1 * r.val = win0_7.index t (1 : Fin 3) * 512 + r.val; omega
  | ⟨2, _⟩ => show win0_1.index t (2 : Fin 3) * 64 + 1 * d.val = d.val; omega

theorem blk_k (c : Dev nD) (t : Fin cfg0.N) (n : Fin 1024) (d : Fin 64) :
    iblk m c 2 t (ix3 0 n d) = V m c main_arg1 (ix3 (bh t) n d) := by
  obtain ⟨-, -, -, -, -, -, -, -, -, -, -, -, -, -, -, e0, e1, e2, -⟩ := idx_facts t
  show V m c main_arg1 (((cfg0.win 2).blk t).view.emb (ix3 0 n d)) = _
  refine congrArg (V m c main_arg1) (funext fun a => Fin.ext ?_)
  match a with
  | ⟨0, _⟩ => show win0_2.index t (0 : Fin 3) * 1 + 1 * 0 = win0_7.index t (0 : Fin 3); omega
  | ⟨1, _⟩ => show win0_2.index t (1 : Fin 3) * 1024 + 1 * n.val = n.val; omega
  | ⟨2, _⟩ => show win0_2.index t (2 : Fin 3) * 64 + 1 * d.val = d.val; omega

theorem blk_ks (c : Dev nD) (t : Fin cfg0.N) (n : Fin 1024) (d : Fin 64) :
    iblk m c 3 t (ix3 0 n d) = V m c main_arg4 (ix3 (bh t) n d) := by
  obtain ⟨-, -, -, -, -, -, -, -, -, -, -, -, -, -, -, -, -, -, e0, e1, e2, -⟩ := idx_facts t
  show V m c main_arg4 (((cfg0.win 3).blk t).view.emb (ix3 0 n d)) = _
  refine congrArg (V m c main_arg4) (funext fun a => Fin.ext ?_)
  match a with
  | ⟨0, _⟩ => show win0_3.index t (0 : Fin 3) * 1 + 1 * 0 = win0_7.index t (0 : Fin 3); omega
  | ⟨1, _⟩ => show win0_3.index t (1 : Fin 3) * 1024 + 1 * n.val = n.val; omega
  | ⟨2, _⟩ => show win0_3.index t (2 : Fin 3) * 64 + 1 * d.val = d.val; omega

theorem blk_v (c : Dev nD) (t : Fin cfg0.N) (n : Fin 1024) (d : Fin 64) :
    iblk m c 4 t (ix3 0 n d) = V m c main_arg2 (ix3 (bh t) n d) := by
  obtain ⟨-, -, -, -, -, -, -, -, -, -, -, -, -, -, -, -, -, -, -, -, -, e0, e1, e2⟩ := idx_facts t
  show V m c main_arg2 (((cfg0.win 4).blk t).view.emb (ix3 0 n d)) = _
  refine congrArg (V m c main_arg2) (funext fun a => Fin.ext ?_)
  match a with
  | ⟨0, _⟩ => show win0_4.index t (0 : Fin 3) * 1 + 1 * 0 = win0_7.index t (0 : Fin 3); omega
  | ⟨1, _⟩ => show win0_4.index t (1 : Fin 3) * 1024 + 1 * n.val = n.val; omega
  | ⟨2, _⟩ => show win0_4.index t (2 : Fin 3) * 64 + 1 * d.val = d.val; omega

/-! ## What each point writes back -/

/-- Point `t` writes back block `t` of the scaled scores of the argument arrays. -/
theorem flushed_score (c : Dev nD) (t : Fin cfg0.N) :
    (dats m 0 c).flushed 7 t = ((cfg0.win 7).blk t).view.read (Elt Ideal)
      (score (V m c main_arg0) (V m c main_arg3) (V m c main_arg1) (V m c main_arg4)) := by
  rw [Cert.KernelIdeal.Value.flushed7]
  funext y
  show out0_7 (iblk m c 0 t) (iblk m c 1 t) (iblk m c 2 t) (iblk m c 3 t) (iblk m c 4 t) y
    = score (V m c main_arg0) (V m c main_arg3) (V m c main_arg1) (V m c main_arg4) (((cfg0.win 7).blk t).view.emb y)
  unfold out0_7
  rw [View.canon_unit_zero hz]
  simp only [View.ld_unit_zero (S := S1x512x64) hz, View.ld_unit_zero (S := S1x1024x64) hz]
  refine (Cert.KPay.score_store (V m c main_arg0) (V m c main_arg3) (V m c main_arg1) (V m c main_arg4) (bh t) (rb t)
    (iblk m c 0 t) (iblk m c 1 t) (iblk m c 2 t) (iblk m c 3 t)
    (blk_q m c t) (blk_qs m c t) (blk_k m c t) (blk_ks m c t) y).trans ?_
  refine congrArg (score (V m c main_arg0) (V m c main_arg3) (V m c main_arg1) (V m c main_arg4)) (funext fun a => Fin.ext ?_)
  have hy0 : (y 0).val < 1 := (y 0).isLt
  match a with
  | ⟨0, _⟩ => show win0_7.index t (0 : Fin 3) = win0_7.index t (0 : Fin 3) * 1 + 1 * (y 0).val; omega
  | ⟨1, _⟩ => show win0_7.index t (1 : Fin 3) * 512 + (y 1).val = win0_7.index t (1 : Fin 3) * 512 + 1 * (y 1).val; omega
  | ⟨2, _⟩ => show (y 2).val = win0_7.index t (2 : Fin 3) * 1024 + 1 * (y 2).val; have := (idx_facts t).2.2.1; omega

/-- Point `t` writes back block `t` of the softmax of the scores. -/
theorem flushed_softmax (c : Dev nD) (t : Fin cfg0.N) :
    (dats m 0 c).flushed 6 t = ((cfg0.win 6).blk t).view.read (Elt Ideal)
      (softmax (score (V m c main_arg0) (V m c main_arg3) (V m c main_arg1) (V m c main_arg4))) := by
  rw [Cert.KernelIdeal.Value.flushed6]
  funext y
  show out0_6 (iblk m c 0 t) (iblk m c 1 t) (iblk m c 2 t) (iblk m c 3 t) (iblk m c 4 t) y
    = softmax (score (V m c main_arg0) (V m c main_arg3) (V m c main_arg1) (V m c main_arg4)) (((cfg0.win 6).blk t).view.emb y)
  unfold out0_6
  rw [View.canon_unit_zero hz]
  simp only [View.ld_unit_zero (S := S1x512x64) hz, View.ld_unit_zero (S := S1x1024x64) hz]
  refine (Cert.KPay.softmax_store (V m c main_arg0) (V m c main_arg3) (V m c main_arg1) (V m c main_arg4) (bh t) (rb t)
    (iblk m c 0 t) (iblk m c 1 t) (iblk m c 2 t) (iblk m c 3 t)
    (blk_q m c t) (blk_qs m c t) (blk_k m c t) (blk_ks m c t) y).trans ?_
  refine congrArg (softmax (score (V m c main_arg0) (V m c main_arg3) (V m c main_arg1) (V m c main_arg4))) (funext fun a => Fin.ext ?_)
  have hy0 : (y 0).val < 1 := (y 0).isLt
  obtain ⟨-, -, -, e0, e1, e2, -⟩ := idx_facts t
  match a with
  | ⟨0, _⟩ => show win0_7.index t (0 : Fin 3) = win0_6.index t (0 : Fin 3) * 1 + 1 * (y 0).val; omega
  | ⟨1, _⟩ => show win0_7.index t (1 : Fin 3) * 512 + (y 1).val = win0_6.index t (1 : Fin 3) * 512 + 1 * (y 1).val; omega
  | ⟨2, _⟩ => show (y 2).val = win0_6.index t (2 : Fin 3) * 1024 + 1 * (y 2).val; omega

/-- Point `t` writes back block `t` of the softmax-weighted sum of the value rows. -/
theorem flushed_weighted (c : Dev nD) (t : Fin cfg0.N) :
    (dats m 0 c).flushed 5 t = ((cfg0.win 5).blk t).view.read (Elt Ideal)
      (weighted (softmax (score (V m c main_arg0) (V m c main_arg3) (V m c main_arg1) (V m c main_arg4))) (V m c main_arg2)) := by
  rw [Cert.KernelIdeal.Value.flushed5]
  funext y
  show out0_5 (iblk m c 0 t) (iblk m c 1 t) (iblk m c 2 t) (iblk m c 3 t) (iblk m c 4 t) y
    = weighted (softmax (score (V m c main_arg0) (V m c main_arg3) (V m c main_arg1) (V m c main_arg4))) (V m c main_arg2) (((cfg0.win 5).blk t).view.emb y)
  unfold out0_5
  rw [View.canon_unit_zero hz]
  simp only [View.ld_unit_zero (S := S1x512x64) hz, View.ld_unit_zero (S := S1x1024x64) hz]
  refine (Cert.KPay.weighted_store (V m c main_arg0) (V m c main_arg3) (V m c main_arg1) (V m c main_arg4) (V m c main_arg2) (bh t) (rb t)
    (iblk m c 0 t) (iblk m c 1 t) (iblk m c 2 t) (iblk m c 3 t) (iblk m c 4 t)
    (blk_q m c t) (blk_qs m c t) (blk_k m c t) (blk_ks m c t) (blk_v m c t) y).trans ?_
  refine congrArg (weighted (softmax (score (V m c main_arg0) (V m c main_arg3) (V m c main_arg1) (V m c main_arg4))) (V m c main_arg2)) (funext fun a => Fin.ext ?_)
  have hy0 : (y 0).val < 1 := (y 0).isLt
  obtain ⟨-, -, -, -, -, -, e0, e1, e2, -⟩ := idx_facts t
  match a with
  | ⟨0, _⟩ => show win0_7.index t (0 : Fin 3) = win0_5.index t (0 : Fin 3) * 1 + 1 * (y 0).val; omega
  | ⟨1, _⟩ => show win0_7.index t (1 : Fin 3) * 512 + (y 1).val = win0_5.index t (1 : Fin 3) * 512 + 1 * (y 1).val; omega
  | ⟨2, _⟩ => show (y 2).val = win0_5.index t (2 : Fin 3) * 64 + 1 * (y 2).val; omega

/-! ## The blocks tile each result array -/

/-- An index of a result array is in point `t`'s block iff each coordinate is in the block's range on its axis. -/
theorem mem_blk7 (t : Fin cfg0.N) (i : S64x1024x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v0_2).slice (win0_7.rect t)).set ↔ _
  rw [View.set_slice_whole, Rect.mem_set_unit]
  exact Iff.rfl

theorem mem_blk6 (t : Fin cfg0.N) (i : S64x1024x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v0_1).slice (win0_6.rect t)).set ↔ _
  rw [View.set_slice_whole, Rect.mem_set_unit]
  exact Iff.rfl

theorem mem_blk5 (t : Fin cfg0.N) (i : S64x1024x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v0_0).slice (win0_5.rect t)).set ↔ _
  rw [View.set_slice_whole, Rect.mem_set_unit]
  exact Iff.rfl

/-- Row `n` of batch-head `b` lies in the block of the point (b, n / 512). -/
theorem cover7 (i : S64x1024x1024.Idx) : ∃ t : Fin cfg0.N, (cfg0.win 7).flush t = true ∧ i ∈ ((cfg0.win 7).blk t).view.set := by
  have hi0 : (i 0).val < 64 := (i 0).isLt
  have hi1 : (i 1).val < 1024 := (i 1).isLt
  have hi2 : (i 2).val < 1024 := (i 2).isLt
  obtain ⟨t, q0, q1⟩ := idx_onto ⟨(i 0).val, hi0⟩ ⟨(i 1).val / 512, by omega⟩
  have q2 := (idx_facts t).2.2.1
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; simp only at q0; omega
  | ⟨1, _⟩ => show win0_7.index t (1 : Fin 3) * 512 ≤ (i 1).val ∧ (i 1).val < win0_7.index t (1 : Fin 3) * 512 + 512; simp only at q1; omega
  | ⟨2, _⟩ => show win0_7.index t (2 : Fin 3) * 1024 ≤ (i 2).val ∧ (i 2).val < win0_7.index t (2 : Fin 3) * 1024 + 1024; omega

theorem cover6 (i : S64x1024x1024.Idx) : ∃ t : Fin cfg0.N, (cfg0.win 6).flush t = true ∧ i ∈ ((cfg0.win 6).blk t).view.set := by
  have hi0 : (i 0).val < 64 := (i 0).isLt
  have hi1 : (i 1).val < 1024 := (i 1).isLt
  have hi2 : (i 2).val < 1024 := (i 2).isLt
  obtain ⟨t, q0, q1⟩ := idx_onto ⟨(i 0).val, hi0⟩ ⟨(i 1).val / 512, by omega⟩
  obtain ⟨-, -, q2, e0, e1, e2, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; simp only at q0; omega
  | ⟨1, _⟩ => show win0_6.index t (1 : Fin 3) * 512 ≤ (i 1).val ∧ (i 1).val < win0_6.index t (1 : Fin 3) * 512 + 512; simp only at q1; omega
  | ⟨2, _⟩ => show win0_6.index t (2 : Fin 3) * 1024 ≤ (i 2).val ∧ (i 2).val < win0_6.index t (2 : Fin 3) * 1024 + 1024; omega

theorem cover5 (i : S64x1024x64.Idx) : ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 64 := (i 2).isLt
  obtain ⟨t, q0, q1⟩ := idx_onto ⟨(i 0).val, hi0⟩ ⟨(i 1).val / 512, by omega⟩
  obtain ⟨-, -, q2, -, -, -, e0, e1, e2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; simp only at q0; omega
  | ⟨1, _⟩ => show win0_5.index t (1 : Fin 3) * 512 ≤ (i 1).val ∧ (i 1).val < win0_5.index t (1 : Fin 3) * 512 + 512; simp only at q1; omega
  | ⟨2, _⟩ => show win0_5.index t (2 : Fin 3) * 64 ≤ (i 2).val ∧ (i 2).val < win0_5.index t (2 : Fin 3) * 64 + 64; omega

/-! ## The result arrays after the run -/

theorem final_score (c : Dev nD) : (dats m 0 c).arrAt 7 cfg0.N = score (V m c main_arg0) (V m c main_arg3) (V m c main_arg1) (V m c main_arg4) :=
  (dats m 0 c).arrAt_eq_of_cover 7 (score (V m c main_arg0) (V m c main_arg3) (V m c main_arg1) (V m c main_arg4)) (fun t _ => flushed_score m c t) cover7

theorem final_softmax (c : Dev nD) : (dats m 0 c).arrAt 6 cfg0.N = softmax (score (V m c main_arg0) (V m c main_arg3) (V m c main_arg1) (V m c main_arg4)) :=
  (dats m 0 c).arrAt_eq_of_cover 6 (softmax (score (V m c main_arg0) (V m c main_arg3) (V m c main_arg1) (V m c main_arg4))) (fun t _ => flushed_softmax m c t) cover6

theorem final_weighted (c : Dev nD) : (dats m 0 c).arrAt 5 cfg0.N = weighted (softmax (score (V m c main_arg0) (V m c main_arg3) (V m c main_arg1) (V m c main_arg4))) (V m c main_arg2) :=
  (dats m 0 c).arrAt_eq_of_cover 5 (weighted (softmax (score (V m c main_arg0) (V m c main_arg3) (V m c main_arg1) (V m c main_arg4))) (V m c main_arg2)) (fun t _ => flushed_weighted m c t) cover5

/-- The kernel's run, read: the three result arrays end as the specification's functions of the argument arrays as
    launched, the arguments unchanged. -/
theorem run : θ_run defs (onTc (τ := τ) (main (F := Ideal))) ⟨m, fun _ => 0, ρ⟩ fun r => ∀ c : Dev nD,
      r.2.mem ((c : Thread nD τ).loc main_v0_0) = weighted (softmax (score (V m c main_arg0) (V m c main_arg3) (V m c main_arg1) (V m c main_arg4))) (V m c main_arg2)
      ∧ r.2.mem ((c : Thread nD τ).loc main_v0_1) = softmax (score (V m c main_arg0) (V m c main_arg3) (V m c main_arg1) (V m c main_arg4))
      ∧ r.2.mem ((c : Thread nD τ).loc main_v0_2) = score (V m c main_arg0) (V m c main_arg3) (V m c main_arg1) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_weighted m c), (h c).2.1.trans (final_softmax m c),
      (h c).2.2.1.trans (final_score m c), (h c).2.2.2⟩)
    (Cert.KernelIdeal.Value.run_blocks m ρ)

end Cert.Blocks

end
-- ==== Proof.lean ====
/-
  The certificate of a scaled dot-product attention kernel against its array-level reference.

  Both programs take five [64, 1024, 64] arrays — queries, keys, values and a second query and key term — and return, per
  batch-head, the scaled scores `(q + qs)(k + ks)ᵀ / 8`, their row-wise softmax, and the softmax-weighted sum of the value
  rows (Proof/Spec.lean states the three as functions of the arguments over the extended reals).

  The kernel evaluates them block by block: grid point (b, o) holds 512 query rows of batch-head `b` against all 1024 key
  and value rows, so every row's maximum, sum and weighted sum is complete inside one block, and the blocks tile the three
  results (Proof/Blocks.lean, over the block's arithmetic read at an index in Proof/KPay.lean). The reference evaluates
  them on whole arrays (Proof/RefSpec.lean). The two differ only in spelling: a product with the float 0.125 against a
  quotient by the float 8.0 (equal on every extended real, both literals being exact), one extra `max` with `-∞`, and the
  order in which finite sums and maxima are folded (immaterial: `+` and `max` commute and associate). No step needs the
  inputs finite, so the precondition is never opened.

  The frames are the generated ones (the reference's is its generated run with the results dropped); the idealization pass
  rewrote nothing, so `preserves` is `True`.
-/
import proofs.«123765_j22625887715975_2_alg».proof.Defs
import proofs.«123765_j22625887715975_2_alg».proof.Proof.Gen.Kernel
import proofs.«123765_j22625887715975_2_alg».proof.Proof.Gen.Kernel.Skeleton
import proofs.«123765_j22625887715975_2_alg».proof.Proof.Gen.Kernel.Launch
import proofs.«123765_j22625887715975_2_alg».proof.Proof.Gen.Kernel.Points
import proofs.«123765_j22625887715975_2_alg».proof.Proof.Gen.Kernel.Frame
import proofs.«123765_j22625887715975_2_alg».proof.Proof.Gen.KernelIdeal
import proofs.«123765_j22625887715975_2_alg».proof.Proof.Gen.KernelIdeal.Skeleton
import proofs.«123765_j22625887715975_2_alg».proof.Proof.Gen.KernelIdeal.Launch
import proofs.«123765_j22625887715975_2_alg».proof.Proof.Gen.KernelIdeal.Points
import proofs.«123765_j22625887715975_2_alg».proof.Proof.Gen.KernelIdeal.Frame
import proofs.«123765_j22625887715975_2_alg».proof.Proof.Gen.ReferenceIdeal
import proofs.«123765_j22625887715975_2_alg».proof.Proof.Gen.Pre_finite_inputs
import proofs.«123765_j22625887715975_2_alg».proof.Proof.Gen.KernelIdeal.Value
import proofs.«123765_j22625887715975_2_alg».proof.Proof.Gen.ReferenceIdeal.Run
import proofs.«123765_j22625887715975_2_alg».proof.Proof.Gen.ReferenceIdeal.Read
import proofs.«123765_j22625887715975_2_alg».proof.Proof.Spec
import proofs.«123765_j22625887715975_2_alg».proof.Proof.RefSpec
import proofs.«123765_j22625887715975_2_alg».proof.Proof.Blocks
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the weighted sum, the softmax and the scores of the SAME argument arrays: the kernel by its
    blocks (Blocks.run), the reference stage by stage (RefSpec), the arguments agreeing by hypothesis. -/
theorem algebraic : Cert.algebraic_KernelIdeal_ReferenceIdeal := by
  intro m ρ m' ρ' _ hagree
  refine ⟨_, _, _, Cert.Blocks.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v16_eq, Cert.RefSpec.weighted_eq,
      (hagree c).1, (hagree c).2.1, (hagree c).2.2.1, (hagree c).2.2.2.1, (hagree c).2.2.2.2]
  · rw [(h c).2.1, Cert.ReferenceIdeal.Read.val_main_v15_eq, Cert.RefSpec.softmax_eq,
      (hagree c).1, (hagree c).2.1, (hagree c).2.2.2.1, (hagree c).2.2.2.2]
  · rw [(h c).2.2.1, Cert.ReferenceIdeal.Read.val_main_v4_eq, Cert.RefSpec.score_eq,
      (hagree c).1, (hagree c).2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
